-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S1024x1 : Shape := ⟨2, ![1024, 1]⟩
abbrev S1024 : Shape := ⟨1, ![1024]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x32 .f32) (main_arg1 : FVec F S1024x1 .f32) (main_arg2 : FVec F S1024 .f32) (main_arg3 : FVec F S1024 .f32) (main_arg4 : FVec F S1024 .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S2048x32 : Shape := ⟨2, ![2048, 32]⟩
abbrev S1024x1 : Shape := ⟨2, ![1024, 1]⟩
abbrev S1024 : Shape := ⟨1, ![1024]⟩
abbrev S_ : Shape := ⟨0, ![]⟩
abbrev S65536x1 : Shape := ⟨2, ![65536, 1]⟩
abbrev S1x1024 : Shape := ⟨2, ![1, 1024]⟩
abbrev S1x1 : Shape := ⟨2, ![1, 1]⟩
abbrev S65536x1024 : Shape := ⟨2, ![65536, 1024]⟩
abbrev S2048x1 : Shape := ⟨2, ![2048, 1]⟩
abbrev S2048x1024 : Shape := ⟨2, ![2048, 1024]⟩
abbrev S2048x32x1024 : Shape := ⟨3, ![2048, 32, 1024]⟩

abbrev nBuf : Space → Nat
  | .hbm => 43
  | .vmem => 11
  | .smem => 0
  | _ => 0

abbrev bufTy : (tb : Table) → Fin (tcTables nBuf tb) → BufTy
  | .hbm, ⟨0, _⟩ => ⟨S2048x32, .f32⟩
  | .hbm, ⟨1, _⟩ => ⟨S1024x1, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S65536x1, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1, .f32⟩
  | .hbm, ⟨39, _⟩ => ⟨S1x1, .f32⟩
  | .hbm, ⟨40, _⟩ => ⟨S1x1, .f32⟩
  | .hbm, ⟨41, _⟩ => ⟨S65536x1024, .f32⟩
  | .hbm, ⟨42, _⟩ => ⟨S2048x32x1024, .f32⟩
  | .local _ .vmem, ⟨0, _⟩ => ⟨S2048x1, .f32⟩
  | .local _ .vmem, ⟨1, _⟩ => ⟨S2048x1, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S2048x1024, .f32⟩
  | .local _ .vmem, ⟨10, _⟩ => ⟨S2048x1024, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩
abbrev main_cst_7 : Ref sig .tc := ⟨.hbm, 29, rfl⟩
abbrev main_v16 : Ref sig .tc := ⟨.hbm, 30, rfl⟩
abbrev main_cst_8 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1024x1_S1024 : S1024x1.ShapeCasts S1024
  reducesTo_S1024_S_d0 : S1024.ReducesTo [0] S_
  h_S_ : 0 < S_.numel
  bcast_S_S1024 : S_.BroadcastsInDim S1024 (![] : Fin 0 → Fin S1024.rank)
  shapeCasts_S2048x32_S65536x1 : S2048x32.ShapeCasts S65536x1
  shapeCasts_S1024_S1x1024 : S1024.ShapeCasts S1x1024
  shapeCasts_S_S1x1 : S_.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S65536x1024_S2048x32x1024 : S65536x1024.ShapeCasts S2048x32x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S65536x1.size a
  hwx0_0 : ∀ i : grid0.Coords, EltTy.bits .f32 = 32 ∨ (Rect.block (s := S65536x1) S2048x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1024.size a ≤ S65536x1024.size a
  hwx0_8 : ∀ i : grid0.Coords, EltTy.bits .f32 = 32 ∨ (Rect.block (s := S65536x1024) S2048x1024.size (cc0_transform_8 i) (hinb0_8 i)).WholeWords (EltTy.packing .f32)

variable [Facts₀]

abbrev win0_0 : Pipeline.Window sig grid0 :=
  Pipeline.Window.ofSpec (Memref.whole main_v18) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S2048x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2048x32 : Shape := ⟨2, ![2048, 32]⟩
abbrev S1024x1 : Shape := ⟨2, ![1024, 1]⟩
abbrev S1024 : Shape := ⟨1, ![1024]⟩
abbrev S2048x32x1 : Shape := ⟨3, ![2048, 32, 1]⟩
abbrev S1x1x1024 : Shape := ⟨3, ![1, 1, 1024]⟩
abbrev S2048x32x1024 : Shape := ⟨3, ![2048, 32, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S1024x1, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2048x32x1, .f32⟩
  | .hbm, ⟨6, _⟩ => ⟨S1024, .f32⟩
  | .hbm, ⟨7, _⟩ => ⟨S1x1x1024, .f32⟩
  | .hbm, ⟨8, _⟩ => ⟨S2048x32x1024, .f32⟩
  | .hbm, ⟨9, _⟩ => ⟨S2048x32x1024, .f32⟩
  | .hbm, ⟨10, _⟩ => ⟨S2048x32x1024, .f32⟩
  | .hbm, ⟨11, _⟩ => ⟨S1x1x1024, .f32⟩
  | .hbm, ⟨12, _⟩ => ⟨S2048x32x1024, .f32⟩
  | .hbm, ⟨13, _⟩ => ⟨S2048x32x1024, .f32⟩
  | .hbm, ⟨14, _⟩ => ⟨S_, .f32⟩
  | .hbm, ⟨15, _⟩ => ⟨S2048x32x1024, .f32⟩
  | .hbm, ⟨16, _⟩ => ⟨S2048x32x1024, .f32⟩
  | .hbm, ⟨17, _⟩ => ⟨S_, .f32⟩
  | .hbm, ⟨18, _⟩ => ⟨S2048x32, .f32⟩
  | .hbm, ⟨19, _⟩ => ⟨S2048x32x1, .f32⟩
  | .hbm, ⟨20, _⟩ => ⟨S_, .f32⟩
  | .hbm, ⟨21, _⟩ => ⟨S2048x32x1, .f32⟩
  | .hbm, ⟨22, _⟩ => ⟨S2048x32x1, .f32⟩
  | .hbm, ⟨23, _⟩ => ⟨S2048x32x1024, .f32⟩
  | .hbm, ⟨24, _⟩ => ⟨S2048x32x1024, .f32⟩
  | .hbm, ⟨25, _⟩ => ⟨S2048x32x1024, .f32⟩
  | .hbm, ⟨26, _⟩ => ⟨S_, .f32⟩
  | .hbm, ⟨27, _⟩ => ⟨S2048x32, .f32⟩
  | .hbm, ⟨28, _⟩ => ⟨S2048x32x1, .f32⟩
  | .hbm, ⟨29, _⟩ => ⟨S_, .f32⟩
  | .hbm, ⟨30, _⟩ => ⟨S2048x32x1, .f32⟩
  | .hbm, ⟨31, _⟩ => ⟨S2048x32x1, .f32⟩
  | .hbm, ⟨32, _⟩ => ⟨S2048x32x1024, .f32⟩
  | .hbm, ⟨33, _⟩ => ⟨S2048x32x1024, .f32⟩
  | .hbm, ⟨34, _⟩ => ⟨S_, .f32⟩
  | .hbm, ⟨35, _⟩ => ⟨S2048x32x1, .f32⟩
  | .hbm, ⟨36, _⟩ => ⟨S2048x32x1, .f32⟩
  | .hbm, ⟨37, _⟩ => ⟨S2048x32x1, .f32⟩
  | .hbm, ⟨38, _⟩ => ⟨S2048x32x1024, .f32⟩
  | .hbm, ⟨39, _⟩ => ⟨S2048x32x1024, .f32⟩
  | .hbm, ⟨40, _⟩ => ⟨S1x1x1024, .f32⟩
  | .hbm, ⟨41, _⟩ => ⟨S2048x32x1024, .f32⟩
  | .hbm, ⟨42, _⟩ => ⟨S2048x32x1024, .f32⟩
  | .hbm, ⟨43, _⟩ => ⟨S1x1x1024, .f32⟩
  | .hbm, ⟨44, _⟩ => ⟨S2048x32x1024, .f32⟩
  | .hbm, ⟨45, _⟩ => ⟨S2048x32x1024, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S2048x32_S2048x32x1_0_1 : S2048x32.BroadcastsInDim S2048x32x1 (![0, 1] : Fin 2 → Fin S2048x32x1.rank)
  shapeCasts_S1024x1_S1024 : S1024x1.ShapeCasts S1024
  bcast_S1024_S1x1x1024_2 : S1024.BroadcastsInDim S1x1x1024 (![2] : Fin 1 → Fin S1x1x1024.rank)
  bcast_S2048x32x1_S2048x32x1024_0_1_2 : S2048x32x1.BroadcastsInDim S2048x32x1024 (![0, 1, 2] : Fin 3 → Fin S2048x32x1024.rank)
  bcast_S1x1x1024_S2048x32x1024_0_1_2 : S1x1x1024.BroadcastsInDim S2048x32x1024 (![0, 1, 2] : Fin 3 → Fin S2048x32x1024.rank)
  bcast_S_S2048x32x1024 : S_.BroadcastsInDim S2048x32x1024 (![] : Fin 0 → Fin S2048x32x1024.rank)
  reducesTo_S2048x32x1024_S2048x32_d2 : S2048x32x1024.ReducesTo [2] S2048x32
  h_S_ : 0 < S_.numel
  bcast_S_S2048x32x1 : S_.BroadcastsInDim S2048x32x1 (![] : Fin 0 → Fin S2048x32x1.rank)

variable [Facts₀]

class Facts : Prop extends Facts₀ where

variable [Facts]
-- ==== Proof.RowNorm.lean ====
/-
  One row of a layer normalisation of the affine image of a scalar, in two arrangements, on the extended reals.

  Fix a scalar `x`, weights `W`, biases `b`, gains `g` and shifts `β` over a finite index set, a scale `s` and a
  divisor `n`. The row is `h k = (x · W k + b k) · s`.

  * `refRow`: the row is formed, its average `μ = (Σ h) / n` subtracted, the average of the squared differences
    `σ² = (Σ (h − μ)²) / n` taken, and entry `d` is `(h d − μ) · rsqrt (σ² + e) · g d + β d`.
  * `kerRow`: the parameters are centred first, `Wc = W − (Σ W)/n`, `bc = b − (Σ b)/n`, their three second moments
    `A = (Σ Wc²)/n`, `B = (Σ Wc·bc)/n`, `C = (Σ bc²)/n` are taken once, and entry `d` is
    `(x · Wc d + bc d) · s · rsqrt (s² · (x² · A + 2x · B + C) + e) · g d + β d`.

  On REAL inputs the two agree: `h d − μ = (x · Wc d + bc d) · s` because subtraction of the average is linear, and
  `σ² = s² · (x² · A + 2x · B + C)` by expanding the square under the sum. Both steps distribute a product over a
  sum, which is why the inputs have to be finite: on the extended reals distributivity fails at the infinities.
  The reciprocal square root is applied to equal arguments and is never opened.
-/
import Idealize.ShloMosaic.PureOps.Ideal
import Idealize.ShloMosaic.Lib.ValueIdx

noncomputable section

open scoped BigOperators

namespace Cert.RowNorm

open Idealize.ShloMosaic

variable {D : Type} [Fintype D]

/-- The words of the float literals both programs use: 0, 1024, 32, 2 and the variance offset. -/
abbrev w0 : EReal := Ideal.ofBits .f32 0x00000000#32
abbrev w1024 : EReal := Ideal.ofBits .f32 0x44800000#32
abbrev w32 : EReal := Ideal.ofBits .f32 0x42000000#32
abbrev w2 : EReal := Ideal.ofBits .f32 0x40000000#32
abbrev wEps : EReal := Ideal.ofBits .f32 0x3727C5AC#32

/-- A 1024 × 1 column as a vector over its first coordinate. -/
abbrev col (x : (⟨2, ![1024, 1]⟩ : Shape).Idx → EReal) : Fin 1024 → EReal := fun k => x (ValueIdx.ix2 k (0 : Fin 1))
/-- A one-axis array of 1024 entries as a vector over its coordinate. -/
abbrev vec (x : (⟨1, ![1024]⟩ : Shape).Idx → EReal) : Fin 1024 → EReal := fun k => x (ValueIdx.ix1 k)

/-- A finite sum of reals, read in the extended reals, is the sum there. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The average as the programs compute it: the sum, started from `z`, divided by `n`. -/
def avg (z n : EReal) (f : D → EReal) : EReal := Ideal.div (z + ∑ k, f k) n

/-- The row before normalisation. -/
def scaled (s x : EReal) (W b : D → EReal) (k : D) : EReal := (x * W k + b k) * s

/-- Normalise the finished row. -/
def refRow (z n s e x : EReal) (W b g β : D → EReal) (d : D) : EReal :=
  ((scaled s x W b d - avg z n (scaled s x W b))
      * Ideal.rsqrt (avg z n (fun k => (scaled s x W b k - avg z n (scaled s x W b)) * (scaled s x W b k - avg z n (scaled s x W b))) + e))
    * g d + β d

/-- Centre the parameters, take their second moments once, and normalise by the closed form of the variance. -/
def kerRow (z n s s2 two e x : EReal) (W b g β : D → EReal) (d : D) : EReal :=
  (((x * (W d - avg z n W) + (b d - avg z n b)) * s)
      * Ideal.rsqrt (s2 * (((x * x) * avg z n (fun k => (W k - avg z n W) * (W k - avg z n W))
            + (two * x) * avg z n (fun k => (W k - avg z n W) * (b k - avg z n b)))
          + avg z n (fun k => (b k - avg z n b) * (b k - avg z n b))) + e))
    * g d + β d

/-- Subtracting the average of the row is the row of the centred parameters. -/
theorem real_centre (x c N : ℝ) (W b : D → ℝ) (d : D) :
    (x * W d + b d) * c - (∑ k, (x * W k + b k) * c) * (1 / N)
      = (x * (W d - (∑ k, W k) * (1 / N)) + (b d - (∑ k, b k) * (1 / N))) * c := by
  have h : ∑ k, (x * W k + b k) * c = (x * ∑ k, W k + ∑ k, b k) * c := by
    rw [← Finset.sum_mul, Finset.sum_add_distrib, ← Finset.mul_sum]
  rw [h]; ring

/-- The average of the squares of the centred row, by expanding each square. -/
theorem real_var (x c N : ℝ) (Wc bc : D → ℝ) :
    (∑ k, ((x * Wc k + bc k) * c) * ((x * Wc k + bc k) * c)) * (1 / N)
      = (c * c) * (((x * x) * ((∑ k, Wc k * Wc k) * (1 / N)) + (2 * x) * ((∑ k, Wc k * bc k) * (1 / N)))
          + (∑ k, bc k * bc k) * (1 / N)) := by
  have h : ∑ k, ((x * Wc k + bc k) * c) * ((x * Wc k + bc k) * c)
      = (c * c) * (((x * x) * ∑ k, Wc k * Wc k + (2 * x) * ∑ k, Wc k * bc k) + ∑ k, bc k * bc k) := by
    simp only [Finset.mul_sum, ← Finset.sum_add_distrib]
    exact Finset.sum_congr rfl fun k _ => by ring
  rw [h]; ring

/-- **The two arrangements agree on real inputs.** -/
theorem refRow_eq_kerRow (N c ε : ℝ) (hN : N ≠ 0) (x : ℝ) (W b g β : D → ℝ) (d : D) :
    refRow 0 (N : EReal) (c : EReal) (ε : EReal) (x : EReal) (fun k => (W k : EReal)) (fun k => (b k : EReal))
        (fun k => (g k : EReal)) (fun k => (β k : EReal)) d
      = kerRow 0 (N : EReal) (c : EReal) ((c * c : ℝ) : EReal) ((2 : ℝ) : EReal) (ε : EReal) (x : EReal)
        (fun k => (W k : EReal)) (fun k => (b k : EReal)) (fun k => (g k : EReal)) (fun k => (β k : EReal)) d := by
  have hav : ∀ f : D → ℝ, avg 0 (N : EReal) (fun k => (f k : EReal)) = (((∑ k, f k) * (1 / N) : ℝ) : EReal) := fun f => by
    unfold avg
    rw [zero_add, Ideal.div_coe hN, ← coe_sum, ← EReal.coe_mul]
  unfold refRow kerRow scaled
  simp only [← EReal.coe_mul, ← EReal.coe_add, ← EReal.coe_sub, hav]
  -- both sides are now built from reals; the row's differences and their mean square are rearranged there
  have hc : ∀ k, (x * W k + b k) * c - (∑ k, (x * W k + b k) * c) * (1 / N)
      = (x * (W k - (∑ k, W k) * (1 / N)) + (b k - (∑ k, b k) * (1 / N))) * c := fun k => real_centre x c N W b k
  have hv := real_var x c N (fun k => W k - (∑ k, W k) * (1 / N)) (fun k => b k - (∑ k, b k) * (1 / N))
  beta_reduce at hv
  simp only [hc]
  rw [hv]

end Cert.RowNorm

end
-- ==== Proof.LibIdxSum.lean ====
/-
  A sum over the indices of a one-axis array, or of an array whose only axis longer than one is the first, is the sum
  over that axis's coordinates: the index set is in bijection with the coordinate's range, every other coordinate
  being 0.
-/
import Idealize.ShloMosaic.Lib.ValueIdx

noncomputable section

open scoped BigOperators

namespace Cert.IdxSum

open Idealize.ShloMosaic Idealize.ShloMosaic.ValueIdx

/-- The indices of an array of `n` entries are the numbers below `n`. -/
def idxEquiv1 {n : Nat} : (⟨1, ![n]⟩ : Shape).Idx ≃ Fin n where
  toFun i := i 0
  invFun a := ix1 a
  left_inv i := (eq_ix1 i).symm
  right_inv _ := rfl

/-- A sum over the indices of an array of `n` entries is the sum over the numbers below `n`. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The indices of an `n × 1 × 1` array are the numbers below `n`: the two unit coordinates are 0. -/
def idxEquiv3Unit {n : Nat} : (⟨3, ![n, 1, 1]⟩ : Shape).Idx ≃ Fin n where
  toFun i := i 0
  invFun a := ix3 a (0 : Fin 1) (0 : Fin 1)
  left_inv i := by
    funext d
    match d with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

/-- A sum over the indices of an `n × 1 × 1` array is the sum over the numbers below `n`. -/
theorem sum_idx3_unit {M : Type*} [AddCommMonoid M] {n : Nat} (f : (⟨3, ![n, 1, 1]⟩ : Shape).Idx → M) :
    ∑ i, f i = ∑ a : Fin n, f (ix3 a (0 : Fin 1) (0 : Fin 1)) := by
  rw [← Equiv.sum_comp (idxEquiv3Unit (n := n)).symm f]
  rfl

end Cert.IdxSum

end
-- ==== Proof.KerHost.lean ====
/-
  The kernel program's host lines before the region, as functions of the arguments, and each read at coordinates.

  The weight column is flattened; the flattened weights and the biases are each centred by their average over the
  1024 entries; three second moments of the centred vectors are taken (each the average of a product); and the region's
  eight operands are re-laid copies of these: the scalars `x` as one column of 65536 entries (row-major, so entry
  `32 p + q` is `x (p, q)`), the centred vectors, the gains and the shifts as 1 × 1024 rows, the moments as 1 × 1 cells.
-/
import proofs.«139534_j13881334301162_2_alg».proof.Proof.Gen.KernelIdeal.Frame
import proofs.«139534_j13881334301162_2_alg».proof.Proof.RowNorm
import proofs.«139534_j13881334301162_2_alg».proof.Proof.LibIdxSum
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.KerHost

open Cert.KernelIdeal Cert.KernelIdeal.Gen Cert.RowNorm
open Idealize.ShloMosaic Idealize.ShloMosaic.ValueIdx Idealize.ShloMosaic.TcCoe Idealize.SL.Sem Idealize.ShloMosaic.StableHlo

variable {F : FTy → Type} [FloatOps F]

/-- The weight column flattened to a vector. -/
def flat (a1 : (⟨S1024x1, .f32⟩ : BufTy).Contents (Elt F)) : (⟨S1024, .f32⟩ : BufTy).Contents (Elt F) :=
  shapeCast _ a1 shapeCasts_S1024x1_S1024

/-- The average of a vector of 1024 entries as the host computes it: the sum from zero, divided by 1024. -/
def hmean (v : (⟨S1024, .f32⟩ : BufTy).Contents (Elt F)) : (⟨S_, .f32⟩ : BufTy).Contents (Elt F) :=
  Host.divf (Host.reduceAdd v (constant S_ .f32 0x00000000#32) reducesTo_S1024_S_d0 h_S_) (constant S_ .f32 0x44800000#32)

/-- A vector less its average. -/
def centred (v : (⟨S1024, .f32⟩ : BufTy).Contents (Elt F)) : (⟨S1024, .f32⟩ : BufTy).Contents (Elt F) :=
  subf v (broadcastInDim S1024 ![] bcast_S_S1024 (hmean v))

/-- The average of the entrywise product of two vectors. -/
def moment (u v : (⟨S1024, .f32⟩ : BufTy).Contents (Elt F)) : (⟨S_, .f32⟩ : BufTy).Contents (Elt F) :=
  hmean (mulf u v)

/-! ## The region's operands as the host lines leave them -/

variable (m : (ℓ : Loc nD τ sig) → Buf (Elt F) ℓ) (c : Dev nD)

theorem V_v18 : (V m c main_v18 : (⟨S65536x1, .f32⟩ : BufTy).Contents (Elt F))
    = shapeCast _ (m ((c : Thread nD τ).loc main_arg0)) shapeCasts_S2048x32_S65536x1 := by
  show StableHlo.after hostOps0 (fun b => m (c, b)) (Proc.devRef .tc main_v18) = _
  after_results_simp
  rfl

theorem V_v19 : (V m c main_v19 : (⟨S1x1024, .f32⟩ : BufTy).Contents (Elt F))
    = shapeCast _ (centred (flat (m ((c : Thread nD τ).loc main_arg1)))) shapeCasts_S1024_S1x1024 := by
  show StableHlo.after hostOps0 (fun b => m (c, b)) (Proc.devRef .tc main_v19) = _
  after_results_simp
  rfl

theorem V_v20 : (V m c main_v20 : (⟨S1x1024, .f32⟩ : BufTy).Contents (Elt F))
    = shapeCast _ (centred (m ((c : Thread nD τ).loc main_arg2))) shapeCasts_S1024_S1x1024 := by
  show StableHlo.after hostOps0 (fun b => m (c, b)) (Proc.devRef .tc main_v20) = _
  after_results_simp
  rfl

theorem V_v21 : (V m c main_v21 : (⟨S1x1024, .f32⟩ : BufTy).Contents (Elt F))
    = shapeCast _ (m ((c : Thread nD τ).loc main_arg3)) shapeCasts_S1024_S1x1024 := by
  show StableHlo.after hostOps0 (fun b => m (c, b)) (Proc.devRef .tc main_v21) = _
  after_results_simp
  rfl

theorem V_v22 : (V m c main_v22 : (⟨S1x1024, .f32⟩ : BufTy).Contents (Elt F))
    = shapeCast _ (m ((c : Thread nD τ).loc main_arg4)) shapeCasts_S1024_S1x1024 := by
  show StableHlo.after hostOps0 (fun b => m (c, b)) (Proc.devRef .tc main_v22) = _
  after_results_simp
  rfl

theorem V_v23 : (V m c main_v23 : (⟨S1x1, .f32⟩ : BufTy).Contents (Elt F))
    = shapeCast _ (moment (centred (flat (m ((c : Thread nD τ).loc main_arg1)))) (centred (flat (m ((c : Thread nD τ).loc main_arg1))))) shapeCasts_S_S1x1 := by
  show StableHlo.after hostOps0 (fun b => m (c, b)) (Proc.devRef .tc main_v23) = _
  after_results_simp
  rfl

theorem V_v24 : (V m c main_v24 : (⟨S1x1, .f32⟩ : BufTy).Contents (Elt F))
    = shapeCast _ (moment (centred (flat (m ((c : Thread nD τ).loc main_arg1)))) (centred (m ((c : Thread nD τ).loc main_arg2)))) shapeCasts_S_S1x1 := by
  show StableHlo.after hostOps0 (fun b => m (c, b)) (Proc.devRef .tc main_v24) = _
  after_results_simp
  rfl

theorem V_v25 : (V m c main_v25 : (⟨S1x1, .f32⟩ : BufTy).Contents (Elt F))
    = shapeCast _ (moment (centred (m ((c : Thread nD τ).loc main_arg2))) (centred (m ((c : Thread nD τ).loc main_arg2)))) shapeCasts_S_S1x1 := by
  show StableHlo.after hostOps0 (fun b => m (c, b)) (Proc.devRef .tc main_v25) = _
  after_results_simp
  rfl

/-! ## Read at coordinates, on the extended reals -/

theorem flat_apply (a1 : (⟨S1024x1, .f32⟩ : BufTy).Contents (Elt Ideal)) (k : Fin 1024) :
    flat (F := Ideal) a1 (ix1 k) = a1 (ix2 k (0 : Fin 1)) :=
  shapeCast_apply a1 shapeCasts_S1024x1_S1024 (ix1 k) (ix2 k (0 : Fin 1))
    (by rw [Shape.rowMajor_val_two, Shape.rowMajor_val_one]; show k.val * 1 + 0 = k.val; omega)

/-- The host's average is the average of `RowNorm`: the sum over the array's indices is the sum over its coordinate. -/
theorem hmean_apply (v : (⟨S1024, .f32⟩ : BufTy).Contents (Elt Ideal)) (j : S_.Idx) :
    hmean (F := Ideal) v j = avg w0 w1024 (vec v) := by
  unfold hmean avg
  show Ideal.div (Host.reduceAdd v (constant (F := Ideal) S_ .f32 0x00000000#32) reducesTo_S1024_S_d0 h_S_ j) w1024 = _
  simp only [Host.reduceAdd, Ideal.hostReduceAdd_def]
  rw [Ideal.hostReduceAdd_total reducesTo_S1024_S_d0 (fun b => b.elim0), Cert.IdxSum.sum_idx1]
  rfl

theorem centred_apply (v : (⟨S1024, .f32⟩ : BufTy).Contents (Elt Ideal)) (k : Fin 1024) :
    centred (F := Ideal) v (ix1 k) = v (ix1 k) - avg w0 w1024 (vec v) := by
  unfold centred
  rw [subf_apply, broadcastInDim_apply _ bcast_S_S1024 (hmean v) (ix1 k) ix0 (fun a => a.elim0), hmean_apply]

theorem moment_apply (u v : (⟨S1024, .f32⟩ : BufTy).Contents (Elt Ideal)) (j : S_.Idx) :
    moment (F := Ideal) u v j = avg w0 w1024 (fun k => u (ix1 k) * v (ix1 k)) := by
  unfold moment
  rw [hmean_apply]
  rfl

/-- A vector re-laid as a 1 × 1024 row. -/
theorem row_apply (v : (⟨S1024, .f32⟩ : BufTy).Contents (Elt Ideal)) (d : Fin 1024) :
    shapeCast S1x1024 v shapeCasts_S1024_S1x1024 (ix2 (0 : Fin 1) d) = v (ix1 d) :=
  shapeCast_apply v shapeCasts_S1024_S1x1024 _ _
    (by rw [Shape.rowMajor_val_two, Shape.rowMajor_val_one]; show d.val = 0 * 1024 + d.val; omega)

/-- A scalar re-laid as a 1 × 1 cell. -/
theorem cell_apply (v : (⟨S_, .f32⟩ : BufTy).Contents (Elt Ideal)) :
    shapeCast S1x1 v shapeCasts_S_S1x1 (ix2 (0 : Fin 1) (0 : Fin 1)) = v ix0 :=
  shapeCast_apply v shapeCasts_S_S1x1 _ _ (by
    rw [Shape.rowMajor_val_two]
    have h0 : (S_.rowMajor ix0).val = 0 := Shape.rowMajorPi_zero _ _
    rw [h0]; rfl)

/-- The 2048 × 32 scalars re-laid as one column, row-major: entry `32 p + q` is entry (p, q). -/
theorem column_apply (a0 : (⟨S2048x32, .f32⟩ : BufTy).Contents (Elt Ideal)) (p : Fin 2048) (q : Fin 32) (r : Fin 65536)
    (h : r.val = 32 * p.val + q.val) :
    shapeCast S65536x1 a0 shapeCasts_S2048x32_S65536x1 (ix2 r (0 : Fin 1)) = a0 (ix2 p q) :=
  shapeCast_apply a0 shapeCasts_S2048x32_S65536x1 _ _
    (by rw [Shape.rowMajor_val_two, Shape.rowMajor_val_two]; show p.val * 32 + q.val = r.val * 1 + 0; omega)

/-! ## The region's operands at coordinates, from the arguments -/

/-- The five argument arrays as launched, on core `c`. -/
abbrev A0 (mi : (ℓ : Loc nD τ sig) → Buf (Elt Ideal) ℓ) (c : Dev nD) : (⟨S2048x32, .f32⟩ : BufTy).Contents (Elt Ideal) := mi ((c : Thread nD τ).loc main_arg0)
abbrev A1 (mi : (ℓ : Loc nD τ sig) → Buf (Elt Ideal) ℓ) (c : Dev nD) : (⟨S1024x1, .f32⟩ : BufTy).Contents (Elt Ideal) := mi ((c : Thread nD τ).loc main_arg1)
abbrev A2 (mi : (ℓ : Loc nD τ sig) → Buf (Elt Ideal) ℓ) (c : Dev nD) : (⟨S1024, .f32⟩ : BufTy).Contents (Elt Ideal) := mi ((c : Thread nD τ).loc main_arg2)
abbrev A3 (mi : (ℓ : Loc nD τ sig) → Buf (Elt Ideal) ℓ) (c : Dev nD) : (⟨S1024, .f32⟩ : BufTy).Contents (Elt Ideal) := mi ((c : Thread nD τ).loc main_arg3)
abbrev A4 (mi : (ℓ : Loc nD τ sig) → Buf (Elt Ideal) ℓ) (c : Dev nD) : (⟨S1024, .f32⟩ : BufTy).Contents (Elt Ideal) := mi ((c : Thread nD τ).loc main_arg4)

/-- The flattened column, as a vector, is the column as a vector. -/
theorem vec_flat (a1 : (⟨S1024x1, .f32⟩ : BufTy).Contents (Elt Ideal)) : vec (flat (F := Ideal) a1) = col a1 :=
  funext fun k => flat_apply a1 k

section Operands

variable (mi : (ℓ : Loc nD τ sig) → Buf (Elt Ideal) ℓ) (c : Dev nD)

theorem op0_apply (p : Fin 2048) (q : Fin 32) (r : Fin 65536) (h : r.val = 32 * p.val + q.val) :
    (V mi c main_v18 : (⟨S65536x1, .f32⟩ : BufTy).Contents (Elt Ideal)) (ix2 r (0 : Fin 1)) = (A0 mi c) (ix2 p q) := by
  rw [V_v18]; exact column_apply _ p q r h

theorem op1_apply (d : Fin 1024) :
    (V mi c main_v19 : (⟨S1x1024, .f32⟩ : BufTy).Contents (Elt Ideal)) (ix2 (0 : Fin 1) d) = col (A1 mi c) d - avg w0 w1024 (col (A1 mi c)) := by
  rw [V_v19, row_apply, centred_apply, vec_flat, flat_apply]

theorem op2_apply (d : Fin 1024) :
    (V mi c main_v20 : (⟨S1x1024, .f32⟩ : BufTy).Contents (Elt Ideal)) (ix2 (0 : Fin 1) d) = vec (A2 mi c) d - avg w0 w1024 (vec (A2 mi c)) := by
  rw [V_v20, row_apply, centred_apply]

theorem op3_apply (d : Fin 1024) :
    (V mi c main_v21 : (⟨S1x1024, .f32⟩ : BufTy).Contents (Elt Ideal)) (ix2 (0 : Fin 1) d) = vec (A3 mi c) d := by
  rw [V_v21, row_apply]

theorem op4_apply (d : Fin 1024) :
    (V mi c main_v22 : (⟨S1x1024, .f32⟩ : BufTy).Contents (Elt Ideal)) (ix2 (0 : Fin 1) d) = vec (A4 mi c) d := by
  rw [V_v22, row_apply]

theorem op5_apply :
    (V mi c main_v23 : (⟨S1x1, .f32⟩ : BufTy).Contents (Elt Ideal)) (ix2 (0 : Fin 1) (0 : Fin 1))
      = avg w0 w1024 (fun k => (col (A1 mi c) k - avg w0 w1024 (col (A1 mi c))) * (col (A1 mi c) k - avg w0 w1024 (col (A1 mi c)))) := by
  rw [V_v23, cell_apply, moment_apply]
  simp only [centred_apply, vec_flat, flat_apply]

theorem op6_apply :
    (V mi c main_v24 : (⟨S1x1, .f32⟩ : BufTy).Contents (Elt Ideal)) (ix2 (0 : Fin 1) (0 : Fin 1))
      = avg w0 w1024 (fun k => (col (A1 mi c) k - avg w0 w1024 (col (A1 mi c))) * (vec (A2 mi c) k - avg w0 w1024 (vec (A2 mi c)))) := by
  rw [V_v24, cell_apply, moment_apply]
  simp only [centred_apply, vec_flat, flat_apply]

theorem op7_apply :
    (V mi c main_v25 : (⟨S1x1, .f32⟩ : BufTy).Contents (Elt Ideal)) (ix2 (0 : Fin 1) (0 : Fin 1))
      = avg w0 w1024 (fun k => (vec (A2 mi c) k - avg w0 w1024 (vec (A2 mi c))) * (vec (A2 mi c) k - avg w0 w1024 (vec (A2 mi c)))) := by
  rw [V_v25, cell_apply, moment_apply]
  simp only [centred_apply]

end Operands

end Cert.KerHost

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowBroadcast.lean ====
/-
  Two broadcasts along an axis of length one, read at coordinates: a 1 × b row laid along the rows of an a × b matrix,
  and a 1 × 1 cell laid along an a × 1 column. Entry (p, d) of the first is entry (0, d) of the row; every entry of the
  second is the cell: a broadcast reads position 0 of each unit axis of its operand and the result's own coordinate on
  the others.
-/
import Idealize.ShloMosaic.Lib.ValueIdx
import Idealize.ShloMosaic.Lib.Pipeline.Value

namespace Cert.Lib.RowBroadcast

open Idealize.ShloMosaic Idealize.ShloMosaic.ValueIdx

variable {α : Type}

/-- A 1 × b row laid along every row of an a × b matrix (b ≠ 1): entry (p, d) is entry (0, d) of the row. -/
theorem broadcastTo_1b_ab_apply {a b : ℕ} (hb : b ≠ 1) (v : (⟨2, ![1, b]⟩ : Shape).Idx → α)
    (h : (⟨2, ![1, b]⟩ : Shape).Broadcasts ⟨2, ![a, b]⟩) (p : Fin a) (d : Fin b) :
    broadcastTo ⟨2, ![a, b]⟩ v h (ix2 p d) = v (ix2 (0 : Fin 1) d) := by
  refine broadcastTo_apply v h (ix2 p d) (ix2 (0 : Fin 1) d) fun ax => ?_
  match ax with
  | ⟨0, _⟩ => rfl
  | ⟨1, _⟩ =>
    show d.val = if b = 1 then 0 else d.val
    rw [if_neg hb]

/-- A 1 × 1 cell laid along an a × 1 column: every entry is the cell. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

end Cert.Lib.RowBroadcast
-- ==== Proof.KerBody.lean ====
/-
  One tile of the kernel read at coordinates. The body receives a column `x` of 2048 scalars, four 1 × 1024 rows
  (centred weights `wc`, centred biases `bc`, gains `g`, shifts `β`) and three 1 × 1 cells (the moments `A`, `B`, `C`),
  and stores the 2048 × 1024 tile whose entry (p, d) is

      ((x p · wc d + bc d) · 32) · rsqrt (1024 · ((x p · x p) · A + (2 · x p) · B + C) + ε) · g d + β d.

  Every operation between is entrywise or a broadcast along an axis of length one, so reading the tile at (p, d) reads
  each operand at the coordinates it keeps.
-/
import proofs.«139534_j13881334301162_2_alg».proof.Proof.Gen.KernelIdeal.Skeleton
import proofs.«139534_j13881334301162_2_alg».proof.Proof.RowNorm
import proofs.«139534_j13881334301162_2_alg».proof.Proof.LibKeepdims
import proofs.«139534_j13881334301162_2_alg».proof.Proof.LibRowBroadcast
import Idealize.ShloMosaic.Lib.ValueIdx
import Idealize.ShloMosaic.Lib.Pipeline.Value

noncomputable section

namespace Cert.KerBody

open Cert.KernelIdeal Cert.KernelIdeal.Gen Cert.RowNorm Cert.Lib.RowBroadcast
open Idealize.ShloMosaic Idealize.ShloMosaic.ValueIdx

/-- **The stored tile at (p, d).** -/
theorem tile_apply (x0 : Vec Ideal S2048x1 .f32) (x1 x2 x3 x4 : Vec Ideal S1x1024 .f32) (x5 x6 x7 : Vec Ideal S1x1 .f32)
    (p : Fin 2048) (d : Fin 1024) :
    k0_pay1 (k0_pay3 x3) (k0_pay4 x4) (k0_pay5 x0 x1 x2) (k0_pay6 x0 x5 x6 x7) (ix2 p d)
      = (((x0 (ix2 p (0 : Fin 1)) * x1 (ix2 (0 : Fin 1) d) + x2 (ix2 (0 : Fin 1) d)) * w32)
          * Ideal.rsqrt (w1024 * (((x0 (ix2 p (0 : Fin 1)) * x0 (ix2 p (0 : Fin 1))) * x5 (ix2 (0 : Fin 1) (0 : Fin 1))
                + (w2 * x0 (ix2 p (0 : Fin 1))) * x6 (ix2 (0 : Fin 1) (0 : Fin 1))) + x7 (ix2 (0 : Fin 1) (0 : Fin 1))) + wEps))
        * x3 (ix2 (0 : Fin 1) d) + x4 (ix2 (0 : Fin 1) d) := by
  unfold k0_pay1 k0_pay3 k0_pay4 k0_pay5 k0_pay6 k0_pay2
  simp only [shapeCast_self, mulf_apply, addf_apply, Cert.Keepdims.broadcastTo_a1_ab_apply,
    broadcastTo_1b_ab_apply (by decide : (1024 : ℕ) ≠ 1), broadcastTo_11_a1_apply, broadcast_apply, rsqrt]
  rfl

end Cert.KerBody

end
-- ==== Proof.KerBlocks.lean ====
/-
  From tiles to the array. The region's grid has 32 points; point `t` reads rows `2048 t … 2048 t + 2047` of the
  scalar column and the whole of every other operand, and writes rows `2048 t … 2048 t + 2047` of the 65536 × 1024
  result. So the result array is ONE function of the arguments: entry (r, d) is `RowNorm.kerRow` of the scalar
  `x (r / 32, r % 32)` — row `r` of the flattened scalars — and the parameter vectors. Each point writes its block of
  that function, and the 32 blocks cover the array.
-/
import proofs.«139534_j13881334301162_2_alg».proof.Proof.KerHost
import proofs.«139534_j13881334301162_2_alg».proof.Proof.KerBody
import Idealize.ShloMosaic.Lib.Pipeline.Value

noncomputable section

namespace Cert.KerBlocks

open Cert.KernelIdeal Cert.KernelIdeal.Gen Cert.RowNorm Cert.KerHost Cert.KerBody
open Idealize.ShloMosaic Idealize.ShloMosaic.ValueIdx Idealize.ShloMosaic.TcCoe Idealize.SL.Sem
open Idealize.ShloMosaic.Pipeline (Dat)

/-- Entry (r, d) of the region's result, from the argument arrays. -/
def rowOut (a0 : (⟨S2048x32, .f32⟩ : BufTy).Contents (Elt Ideal)) (a1 : (⟨S1024x1, .f32⟩ : BufTy).Contents (Elt Ideal))
    (a2 a3 a4 : (⟨S1024, .f32⟩ : BufTy).Contents (Elt Ideal)) (r : Fin 65536) (d : Fin 1024) : EReal :=
  kerRow w0 w1024 w32 w1024 w2 wEps
    (a0 (ix2 (⟨r.val / 32, by have := r.isLt; omega⟩ : Fin 2048) (⟨r.val % 32, Nat.mod_lt _ (by decide)⟩ : Fin 32)))
    (col a1) (vec a2) (vec a3) (vec a4) d

/-- The region's result array as one function of the argument arrays. -/
def G (a0 : (⟨S2048x32, .f32⟩ : BufTy).Contents (Elt Ideal)) (a1 : (⟨S1024x1, .f32⟩ : BufTy).Contents (Elt Ideal))
    (a2 a3 a4 : (⟨S1024, .f32⟩ : BufTy).Contents (Elt Ideal)) : (⟨S65536x1024, .f32⟩ : BufTy).Contents (Elt Ideal) :=
  fun i => rowOut a0 a1 a2 a3 a4 (i 0) (i 1)

variable (mi : (ℓ : Loc nD τ sig) → Buf (Elt Ideal) ℓ) (c : Dev nD)

theorem hz : (![0, 0] : Fin 2 → Nat) = fun _ => 0 := funext fun a => by fin_cases a <;> rfl

/-- The printed index maps over the grid: the scalar column and the result move one block of rows per point, every other
    operand stays at block (0, 0). -/
theorem idx_facts : ∀ t : Fin cfg0.N,
    win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Entry `p` of the scalar column's block at point `t` is row `2048 t + p` of the column. -/
theorem iblk0_apply (t : Fin cfg0.N) (p : Fin 2048) (r : Fin 65536) (hr : r.val = 2048 * t.val + p.val) :
    (iblk mi c 0 t : Vec Ideal S2048x1 .f32) (ix2 p (0 : Fin 1))
      = (V mi c main_v18 : (⟨S65536x1, .f32⟩ : BufTy).Contents (Elt Ideal)) (ix2 r (0 : Fin 1)) := by
  obtain ⟨e0, e1, -⟩ := idx_facts t
  unfold iblk
  rw [View.read_apply]
  show V mi c main_v18 _ = V mi c main_v18 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 1 + 1 * 0 = 0; rw [e1]

/-- A row operand's block at any point is the whole row. -/
theorem iblk1_apply (t : Fin cfg0.N) (d : Fin 1024) :
    (iblk mi c 1 t : Vec Ideal S1x1024 .f32) (ix2 (0 : Fin 1) d)
      = (V mi c main_v19 : (⟨S1x1024, .f32⟩ : BufTy).Contents (Elt Ideal)) (ix2 (0 : Fin 1) d) := by
  obtain ⟨-, -, -, -, e0, e1, -⟩ := idx_facts t
  unfold iblk
  rw [View.read_apply]
  show V mi c main_v19 _ = V mi c main_v19 _
  congr 1
  funext a
  apply Fin.ext
  match a with
  | ⟨0, _⟩ => show win0_1.index t (0 : Fin 2) * 1 + 1 * 0 = 0; rw [e0]
  | ⟨1, _⟩ => show win0_1.index t (1 : Fin 2) * 1024 + 1 * d.val = d.val; rw [e1]; omega

theorem iblk2_apply (t : Fin cfg0.N) (d : Fin 1024) :
    (iblk mi c 2 t : Vec Ideal S1x1024 .f32) (ix2 (0 : Fin 1) d)
      = (V mi c main_v20 : (⟨S1x1024, .f32⟩ : BufTy).Contents (Elt Ideal)) (ix2 (0 : Fin 1) d) := by
  obtain ⟨-, -, -, -, -, -, e0, e1, -⟩ := idx_facts t
  unfold iblk
  rw [View.read_apply]
  show V mi c main_v20 _ = V mi c main_v20 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * d.val = d.val; rw [e1]; omega

theorem iblk3_apply (t : Fin cfg0.N) (d : Fin 1024) :
    (iblk mi c 3 t : Vec Ideal S1x1024 .f32) (ix2 (0 : Fin 1) d)
      = (V mi c main_v21 : (⟨S1x1024, .f32⟩ : BufTy).Contents (Elt Ideal)) (ix2 (0 : Fin 1) d) := by
  obtain ⟨-, -, -, -, -, -, -, -, e0, e1, -⟩ := idx_facts t
  unfold iblk
  rw [View.read_apply]
  show V mi c main_v21 _ = V mi c main_v21 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * d.val = d.val; rw [e1]; omega

theorem iblk4_apply (t : Fin cfg0.N) (d : Fin 1024) :
    (iblk mi c 4 t : Vec Ideal S1x1024 .f32) (ix2 (0 : Fin 1) d)
      = (V mi c main_v22 : (⟨S1x1024, .f32⟩ : BufTy).Contents (Elt Ideal)) (ix2 (0 : Fin 1) d) := by
  obtain ⟨-, -, -, -, -, -, -, -, -, -, e0, e1, -⟩ := idx_facts t
  unfold iblk
  rw [View.read_apply]
  show V mi c main_v22 _ = V mi c main_v22 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * d.val = d.val; rw [e1]; omega

/-- A cell operand's block at any point is the cell. -/
theorem iblk5_apply (t : Fin cfg0.N) :
    (iblk mi c 5 t : Vec Ideal S1x1 .f32) (ix2 (0 : Fin 1) (0 : Fin 1))
      = (V mi c main_v23 : (⟨S1x1, .f32⟩ : BufTy).Contents (Elt Ideal)) (ix2 (0 : Fin 1) (0 : Fin 1)) := by
  obtain ⟨-, -, -, -, -, -, -, -, -, -, -, -, e0, e1, -⟩ := idx_facts t
  unfold iblk
  rw [View.read_apply]
  show V mi c main_v23 _ = V mi c main_v23 _
  congr 1
  funext a
  apply Fin.ext
  match a with
  | ⟨0, _⟩ => show win0_5.index t (0 : Fin 2) * 1 + 1 * 0 = 0; rw [e0]
  | ⟨1, _⟩ => show win0_5.index t (1 : Fin 2) * 1 + 1 * 0 = 0; rw [e1]

theorem iblk6_apply (t : Fin cfg0.N) :
    (iblk mi c 6 t : Vec Ideal S1x1 .f32) (ix2 (0 : Fin 1) (0 : Fin 1))
      = (V mi c main_v24 : (⟨S1x1, .f32⟩ : BufTy).Contents (Elt Ideal)) (ix2 (0 : Fin 1) (0 : Fin 1)) := by
  obtain ⟨-, -, -, -, -, -, -, -, -, -, -, -, -, -, e0, e1, -⟩ := idx_facts t
  unfold iblk
  rw [View.read_apply]
  show V mi c main_v24 _ = V mi c main_v24 _
  congr 1
  funext a
  apply Fin.ext
  match a with
  | ⟨0, _⟩ => show win0_6.index t (0 : Fin 2) * 1 + 1 * 0 = 0; rw [e0]
  | ⟨1, _⟩ => show win0_6.index t (1 : Fin 2) * 1 + 1 * 0 = 0; rw [e1]

theorem iblk7_apply (t : Fin cfg0.N) :
    (iblk mi c 7 t : Vec Ideal S1x1 .f32) (ix2 (0 : Fin 1) (0 : Fin 1))
      = (V mi c main_v25 : (⟨S1x1, .f32⟩ : BufTy).Contents (Elt Ideal)) (ix2 (0 : Fin 1) (0 : Fin 1)) := by
  obtain ⟨-, -, -, -, -, -, -, -, -, -, -, -, -, -, -, -, e0, e1⟩ := idx_facts t
  unfold iblk
  rw [View.read_apply]
  show V mi c main_v25 _ = V mi c main_v25 _
  congr 1
  funext a
  apply Fin.ext
  match a with
  | ⟨0, _⟩ => show win0_7.index t (0 : Fin 2) * 1 + 1 * 0 = 0; rw [e0]
  | ⟨1, _⟩ => show win0_7.index t (1 : Fin 2) * 1 + 1 * 0 = 0; rw [e1]

/-- What point `t` stores at (p, d) is entry (2048 t + p, d) of `G`. -/
theorem point_apply (t : Fin cfg0.N) (p : Fin 2048) (d : Fin 1024) (r : Fin 65536) (hr : r.val = 2048 * t.val + p.val) :
    k0_pay1 (k0_pay3 (iblk mi c 3 t)) (k0_pay4 (iblk mi c 4 t)) (k0_pay5 (iblk mi c 0 t) (iblk mi c 1 t) (iblk mi c 2 t))
        (k0_pay6 (iblk mi c 0 t) (iblk mi c 5 t) (iblk mi c 6 t) (iblk mi c 7 t)) (ix2 p d)
      = rowOut (A0 mi c) (A1 mi c) (A2 mi c) (A3 mi c) (A4 mi c) r d := by
  refine (tile_apply (iblk mi c 0 t) (iblk mi c 1 t) (iblk mi c 2 t) (iblk mi c 3 t) (iblk mi c 4 t) (iblk mi c 5 t)
    (iblk mi c 6 t) (iblk mi c 7 t) p d).trans ?_
  rw [iblk0_apply mi c t p r hr, iblk1_apply, iblk2_apply, iblk3_apply, iblk4_apply, iblk5_apply, iblk6_apply, iblk7_apply,
    op0_apply mi c ⟨r.val / 32, by have := r.isLt; omega⟩ ⟨r.val % 32, Nat.mod_lt _ (by decide)⟩ r
      (by show r.val = 32 * (r.val / 32) + r.val % 32; omega),
    op1_apply, op2_apply, op3_apply, op4_apply, op5_apply, op6_apply, op7_apply]
  rfl

/-- What point `t` writes back is block `t` of `G` of the argument arrays. -/
theorem flushed_eq (t : Fin cfg0.N) :
    (dats mi 0 c).flushed 8 t
      = ((cfg0.win 8).blk t).view.read (Elt Ideal) (G (A0 mi c) (A1 mi c) (A2 mi c) (A3 mi c) (A4 mi c)) := by
  show (cfg0.win 8).cut (grid0.coords t) ((dats mi 0 c).after 8 t) = _
  rw [after0_8]
  unfold out0_8
  rw [View.canon_unit_zero hz]
  simp only [View.ld_unit_zero (S := S2048x1) hz, View.ld_unit_zero (S := S1x1024) hz, View.ld_unit_zero (S := S1x1) hz]
  obtain ⟨-, -, e0, e1, -⟩ := idx_facts t
  funext j
  obtain ⟨p, d, rfl⟩ : ∃ (p : Fin 2048) (d : Fin 1024), j = ix2 p d := ⟨j 0, j 1, eq_ix2 j⟩
  have hN : cfg0.N = 32 := N_0
  have hr : 2048 * t.val + p.val < 65536 := by have := t.isLt; omega
  refine (point_apply mi c t p d ⟨2048 * t.val + p.val, hr⟩ rfl).trans ?_
  show rowOut _ _ _ _ _ _ d = G _ _ _ _ _ (((cfg0.win 8).blk t).view.emb (ix2 p d))
  have he : ((cfg0.win 8).blk t).view.emb (ix2 p d) = ix2 (⟨2048 * t.val + p.val, hr⟩ : Fin 65536) d := by
    funext a
    apply Fin.ext
    match a with
    | ⟨0, _⟩ => show win0_8.index t (0 : Fin 2) * 2048 + 1 * p.val = 2048 * t.val + p.val; rw [e0]; omega
    | ⟨1, _⟩ => show win0_8.index t (1 : Fin 2) * 1024 + 1 * d.val = d.val; rw [e1]; omega
  rw [he]
  rfl

/-- An index of the result array is in point `t`'s block iff each coordinate is in the block's range on its axis. -/
theorem mem_blk (t : Fin cfg0.N) (i : S65536x1024.Idx) :
    i ∈ ((cfg0.win 8).blk t).view.set ↔ ∀ a : Fin 2, win0_8.index t a * S2048x1024.size a ≤ (i a).val
      ∧ (i a).val < win0_8.index t a * S2048x1024.size a + S2048x1024.size a := by
  show i ∈ ((View.whole main_v26).slice (win0_8.rect t)).set ↔ _
  rw [View.set_slice_whole, Rect.mem_set_unit]
  exact Iff.rfl

/-- Row `r` of the result lies in the block of point `r / 2048`: the 32 blocks cover the array. -/
theorem cover (i : S65536x1024.Idx) :
    ∃ t : Fin cfg0.N, (cfg0.win 8).flush t = true ∧ i ∈ ((cfg0.win 8).blk t).view.set := by
  have hi0 : (i 0).val < 65536 := (i 0).isLt
  have hi1 : (i 1).val < 1024 := (i 1).isLt
  have hN : cfg0.N = 32 := N_0
  have ht : (i 0).val / 2048 < cfg0.N := by rw [hN]; omega
  obtain ⟨-, -, e0, e1, -⟩ := idx_facts ⟨(i 0).val / 2048, ht⟩
  refine ⟨⟨(i 0).val / 2048, ht⟩, flush0_8 _, ?_⟩
  rw [mem_blk]
  intro a
  match a with
  | ⟨0, _⟩ =>
    show win0_8.index ⟨(i 0).val / 2048, ht⟩ (0 : Fin 2) * 2048 ≤ (i 0).val
      ∧ (i 0).val < win0_8.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_8.index ⟨(i 0).val / 2048, ht⟩ (1 : Fin 2) * 1024 ≤ (i 1).val
      ∧ (i 1).val < win0_8.index ⟨(i 0).val / 2048, ht⟩ (1 : Fin 2) * 1024 + 1024
    rw [e1]
    omega

/-- **The region's result array after the run is `G` of the argument arrays.** -/
theorem final : (dats mi 0 c).arrAt 8 cfg0.N = G (A0 mi c) (A1 mi c) (A2 mi c) (A3 mi c) (A4 mi c) :=
  (dats mi 0 c).arrAt_eq_of_cover 8 (G (A0 mi c) (A1 mi c) (A2 mi c) (A3 mi c) (A4 mi c)) (fun t _ => flushed_eq mi c t)
    (cover)

end Cert.KerBlocks

end
-- ==== Proof.KerRun.lean ====
/-
  The kernel program's run, read: the one host line after the region re-lays the 65536 × 1024 result as
  2048 × 32 × 1024, row-major, so entry (p, q, d) of the program's result is entry (32 p + q, d) of the region's
  array — `RowNorm.kerRow` of the scalar `x (p, q)` and the parameter vectors.
-/
import proofs.«139534_j13881334301162_2_alg».proof.Proof.KerBlocks
import Idealize.ShloMosaic.Lib.StableHlo.Run

noncomputable section

namespace Cert.KerRun

open Cert.KernelIdeal Cert.KernelIdeal.Gen Cert.RowNorm Cert.KerHost Cert.KerBlocks
open Idealize.ShloMosaic Idealize.ShloMosaic.ValueIdx Idealize.ShloMosaic.TcCoe Idealize.SL.Sem Idealize.ShloMosaic.StableHlo

/-- The program's result as one function of the argument arrays. -/
def result (a0 : (⟨S2048x32, .f32⟩ : BufTy).Contents (Elt Ideal)) (a1 : (⟨S1024x1, .f32⟩ : BufTy).Contents (Elt Ideal))
    (a2 a3 a4 : (⟨S1024, .f32⟩ : BufTy).Contents (Elt Ideal)) : (⟨S2048x32x1024, .f32⟩ : BufTy).Contents (Elt Ideal) :=
  shapeCast _ (G a0 a1 a2 a3 a4) shapeCasts_S65536x1024_S2048x32x1024

/-- The result at (p, q, d). -/
theorem result_apply (a0 : (⟨S2048x32, .f32⟩ : BufTy).Contents (Elt Ideal)) (a1 : (⟨S1024x1, .f32⟩ : BufTy).Contents (Elt Ideal))
    (a2 a3 a4 : (⟨S1024, .f32⟩ : BufTy).Contents (Elt Ideal)) (p : Fin 2048) (q : Fin 32) (d : Fin 1024) :
    result a0 a1 a2 a3 a4 (ix3 p q d)
      = kerRow w0 w1024 w32 w1024 w2 wEps (a0 (ix2 p q)) (col a1) (vec a2) (vec a3) (vec a4) d := by
  have hr : 32 * p.val + q.val < 65536 := by have := p.isLt; have := q.isLt; omega
  unfold result
  rw [shapeCast_apply (G a0 a1 a2 a3 a4) shapeCasts_S65536x1024_S2048x32x1024 (ix3 p q d)
    (ix2 (⟨32 * p.val + q.val, hr⟩ : Fin 65536) d)
    (by rw [Shape.rowMajor_val_two, Shape.rowMajor_val_three]
        show (32 * p.val + q.val) * 1024 + d.val = (p.val * 32 + q.val) * 1024 + d.val; omega)]
  show rowOut a0 a1 a2 a3 a4 ⟨32 * p.val + q.val, hr⟩ d = _
  unfold rowOut
  have ep : (⟨(32 * p.val + q.val) / 32, by omega⟩ : Fin 2048) = p := Fin.ext (by show (32 * p.val + q.val) / 32 = p.val; have := q.isLt; omega)
  have eq : (⟨(32 * p.val + q.val) % 32, Nat.mod_lt _ (by decide)⟩ : Fin 32) = q := Fin.ext (by show (32 * p.val + q.val) % 32 = q.val; have := q.isLt; omega)
  show kerRow w0 w1024 w32 w1024 w2 wEps (a0 (ix2 (⟨(32 * p.val + q.val) / 32, _⟩ : Fin 2048) (⟨(32 * p.val + q.val) % 32, _⟩ : Fin 32))) _ _ _ _ d = _
  rw [ep, eq]

variable (mi : (ℓ : Loc nD τ sig) → Buf (Elt Ideal) ℓ) (ρ : Dev nD → PrngReg)

/-- The host line after the region, applied to the region's result array. -/
theorem tail_eq (c : Dev nD) :
    Pipeline.afterTail₀ cfgs (dats mi) 0 (V0 mi) [hostOps1] c main_v27 = result (A0 mi c) (A1 mi c) (A2 mi c) (A3 mi c) (A4 mi c) := by
  unfold Pipeline.afterTail₀
  show StableHlo.after hostOps1 _ (Proc.devRef .tc main_v27) = _
  after_results
  rw [show Pipeline.withArrays spec0 c (V0 mi c) (fun w => (dats mi 0 c).arrAt w cfg0.N) (Proc.devRef .tc main_v26)
      = G (A0 mi c) (A1 mi c) (A2 mi c) (A3 mi c) (A4 mi c) from
    (Pipeline.withArrays_arr spec0 launch0.win.arr_inj c _ _ 8).trans (final mi c)]
  rfl

/-- **The kernel program's run**: every weakly fair execution terminates with the result at `result` of the arguments,
    the arguments unchanged. -/
theorem run : θ_run defs (onTc (τ := τ) (main (F := Ideal))) ⟨mi, fun _ => 0, ρ⟩ fun r => ∀ c : Dev nD,
      r.2.mem ((c.tc : Thread nD τ).loc main_v27) = result (A0 mi c) (A1 mi c) (A2 mi c) (A3 mi c) (A4 mi c)
      ∧ r.2.mem ((c.tc : Thread nD τ).loc main_arg0) = mi ((c.tc : Thread nD τ).loc main_arg0)
      ∧ r.2.mem ((c.tc : Thread nD τ).loc main_arg1) = mi ((c.tc : Thread nD τ).loc main_arg1)
      ∧ r.2.mem ((c.tc : Thread nD τ).loc main_arg2) = mi ((c.tc : Thread nD τ).loc main_arg2)
      ∧ r.2.mem ((c.tc : Thread nD τ).loc main_arg3) = mi ((c.tc : Thread nD τ).loc main_arg3)
      ∧ r.2.mem ((c.tc : Thread nD τ).loc main_arg4) = mi ((c.tc : Thread nD τ).loc main_arg4) :=
  (θ_run defs _ _).mono (fun _ h c =>
    ⟨((h c).2 main_v27 (Pipeline.mem_restRefs_of main_v27 (by decide) (by decide))).trans (tail_eq mi c),
      ((h c).2 main_arg0 (Pipeline.mem_restRefs_of main_arg0 (by decide) (by decide))).trans (W_main_arg0 mi (dats mi) c),
      ((h c).2 main_arg1 (Pipeline.mem_restRefs_of main_arg1 (by decide) (by decide))).trans (W_main_arg1 mi (dats mi) c),
      ((h c).2 main_arg2 (Pipeline.mem_restRefs_of main_arg2 (by decide) (by decide))).trans (W_main_arg2 mi (dats mi) c),
      ((h c).2 main_arg3 (Pipeline.mem_restRefs_of main_arg3 (by decide) (by decide))).trans (W_main_arg3 mi (dats mi) c),
      ((h c).2 main_arg4 (Pipeline.mem_restRefs_of main_arg4 (by decide) (by decide))).trans (W_main_arg4 mi (dats mi) c)⟩)
    (run_main mi ρ)

end Cert.KerRun

end
-- ==== Proof.RefRead.lean ====
/-
  The reference read at coordinates. Entry (p, q, d) of its result is `RowNorm.refRow` of the scalar `x (p, q)` and
  the four parameter vectors: the row `(x (p, q) · W k + b k) · 32` over `k`, its average over the last axis, the
  average of the squared differences, the reciprocal square root, gain and shift. Every stage between is a broadcast
  that repeats a value along the axes it adds, so reading it at coordinates only follows the coordinates back to the
  arguments.
-/
import proofs.«139534_j13881334301162_2_alg».proof.Proof.Gen.ReferenceIdeal.Read
import proofs.«139534_j13881334301162_2_alg».proof.Proof.RowNorm
import Idealize.ShloMosaic.Lib.ValueIdx

noncomputable section

open scoped BigOperators

namespace Cert.RefRead

open Cert.ReferenceIdeal Cert.ReferenceIdeal.Read Cert.RowNorm Idealize.ShloMosaic Idealize.ShloMosaic.ValueIdx

variable (x0 : (⟨S2048x32, .f32⟩ : BufTy).Contents (Elt Ideal)) (x1 : (⟨S1024x1, .f32⟩ : BufTy).Contents (Elt Ideal))
  (x2 x3 x4 : (⟨S1024, .f32⟩ : BufTy).Contents (Elt Ideal))

/-- The row before normalisation at (p, q, k). -/
theorem row_apply (p : Fin 2048) (q : Fin 32) (k : Fin 1024) :
    val_main_v10 (F := Ideal) x0 x1 x2 (ix3 p q k) = scaled w32 (x0 (ix2 p q)) (col x1) (vec x2) k := by
  have e0 : idx_main_v0 (idx_main_v3 (ix3 p q k)) = ix2 p q :=
    funext fun a => Fin.ext (by match a with | ⟨0, _⟩ => rfl | ⟨1, _⟩ => rfl)
  have e1 : idx_main_v1 (idx_main_v2 (idx_main_v4 (ix3 p q k))) = ix2 k (0 : Fin 1) :=
    funext fun a => Fin.ext (by match a with | ⟨0, _⟩ => exact Nat.div_one _ | ⟨1, _⟩ => rfl)
  have e2 : idx_main_v6 (idx_main_v7 (ix3 p q k)) = ix1 k :=
    funext fun a => Fin.ext (by match a with | ⟨0, _⟩ => rfl)
  rw [val_main_v10_apply, val_main_v8_apply, val_main_v5_apply, val_main_v3_apply, val_main_v0_apply, val_main_v4_apply,
    val_main_v2_apply, val_main_v1_apply, val_main_v7_apply, val_main_v6_apply, val_main_v9_apply, val_main_cst_apply,
    e0, e1, e2]
  rfl

/-- The row's average at (p, q). -/
theorem mean_apply (p : Fin 2048) (q : Fin 32) :
    val_main_v14 (F := Ideal) x0 x1 x2 (ix3 p q (0 : Fin 1)) = avg w0 w1024 (scaled w32 (x0 (ix2 p q)) (col x1) (vec x2)) := by
  have e12 : idx_main_v12 (ix3 p q (0 : Fin 1)) = ix2 p q :=
    funext fun a => Fin.ext (by match a with | ⟨0, _⟩ => rfl | ⟨1, _⟩ => rfl)
  have e11 : ∀ k : Fin 1024, idx_main_v11 (ix2 p q) k = ix3 p q k := fun k =>
    funext fun a => Fin.ext (by match a with | ⟨0, _⟩ => rfl | ⟨1, _⟩ => rfl | ⟨2, _⟩ => rfl)
  rw [val_main_v14_apply, val_main_v12_apply, val_main_v13_apply, val_main_cst_1_apply, e12, val_main_v11_apply]
  simp only [e11, row_apply]
  rfl

/-- The difference from the average at (p, q, k), as the variance reads it. -/
theorem diff_apply (p : Fin 2048) (q : Fin 32) (k : Fin 1024) :
    val_main_v16 (F := Ideal) x0 x1 x2 (ix3 p q k)
      = scaled w32 (x0 (ix2 p q)) (col x1) (vec x2) k - avg w0 w1024 (scaled w32 (x0 (ix2 p q)) (col x1) (vec x2)) := by
  have e15 : idx_main_v15 (ix3 p q k) = ix3 p q (0 : Fin 1) :=
    funext fun a => Fin.ext (by match a with | ⟨0, _⟩ => rfl | ⟨1, _⟩ => rfl | ⟨2, _⟩ => rfl)
  rw [val_main_v16_apply, val_main_v15_apply, e15, mean_apply, row_apply]
  rfl

/-- The same difference, as the result reads it. -/
theorem diff_apply' (p : Fin 2048) (q : Fin 32) (k : Fin 1024) :
    val_main_v23 (F := Ideal) x0 x1 x2 (ix3 p q k)
      = scaled w32 (x0 (ix2 p q)) (col x1) (vec x2) k - avg w0 w1024 (scaled w32 (x0 (ix2 p q)) (col x1) (vec x2)) := by
  have e22 : idx_main_v22 (ix3 p q k) = ix3 p q (0 : Fin 1) :=
    funext fun a => Fin.ext (by match a with | ⟨0, _⟩ => rfl | ⟨1, _⟩ => rfl | ⟨2, _⟩ => rfl)
  rw [val_main_v23_apply, val_main_v22_apply, e22, mean_apply, row_apply]
  rfl

/-- The average of the squared differences at (p, q). -/
theorem var_apply (p : Fin 2048) (q : Fin 32) :
    val_main_v21 (F := Ideal) x0 x1 x2 (ix3 p q (0 : Fin 1))
      = avg w0 w1024 (fun k => (scaled w32 (x0 (ix2 p q)) (col x1) (vec x2) k - avg w0 w1024 (scaled w32 (x0 (ix2 p q)) (col x1) (vec x2)))
          * (scaled w32 (x0 (ix2 p q)) (col x1) (vec x2) k - avg w0 w1024 (scaled w32 (x0 (ix2 p q)) (col x1) (vec x2)))) := by
  have e19 : idx_main_v19 (ix3 p q (0 : Fin 1)) = ix2 p q :=
    funext fun a => Fin.ext (by match a with | ⟨0, _⟩ => rfl | ⟨1, _⟩ => rfl)
  have e18 : ∀ k : Fin 1024, idx_main_v18 (ix2 p q) k = ix3 p q k := fun k =>
    funext fun a => Fin.ext (by match a with | ⟨0, _⟩ => rfl | ⟨1, _⟩ => rfl | ⟨2, _⟩ => rfl)
  rw [val_main_v21_apply, val_main_v19_apply, val_main_v20_apply, val_main_cst_3_apply, e19, val_main_v18_apply]
  simp only [e18, val_main_v17_apply, diff_apply]
  rfl

/-- **The reference's result at (p, q, d).** -/
theorem ref_apply (p : Fin 2048) (q : Fin 32) (d : Fin 1024) :
    val_main_v34 (F := Ideal) x0 x1 x2 x3 x4 (ix3 p q d)
      = refRow w0 w1024 w32 wEps (x0 (ix2 p q)) (col x1) (vec x2) (vec x3) (vec x4) d := by
  have e27 : idx_main_v27 (ix3 p q d) = ix3 p q (0 : Fin 1) :=
    funext fun a => Fin.ext (by match a with | ⟨0, _⟩ => rfl | ⟨1, _⟩ => rfl | ⟨2, _⟩ => rfl)
  have e3 : idx_main_v29 (idx_main_v30 (ix3 p q d)) = ix1 d :=
    funext fun a => Fin.ext (by match a with | ⟨0, _⟩ => rfl)
  have e4 : idx_main_v32 (idx_main_v33 (ix3 p q d)) = ix1 d :=
    funext fun a => Fin.ext (by match a with | ⟨0, _⟩ => rfl)
  rw [val_main_v34_apply, val_main_v31_apply, val_main_v28_apply, diff_apply', val_main_v27_apply, e27, val_main_v26_apply,
    val_main_v25_apply, var_apply, val_main_v24_apply, val_main_cst_4_apply, val_main_v30_apply, val_main_v29_apply, e3,
    val_main_v33_apply, val_main_v32_apply, e4]
  rfl

end Cert.RefRead

end
-- ==== Proof.LibWords.lean ====
/-
  Float words read as extended reals.

  A word of an IEEE-style format whose exponent field is not all ones denotes a real number (a zero, a subnormal or
  a normal: never an infinity, never the junk value of a NaN pattern): `ieee_real`, and `f32_real` for 32-bit
  words, where the side condition is decided on a literal word. Three literal words: 2.0, −2.0 and +∞.
-/
import Idealize.ShloMosaic.PureOps.Ideal

namespace Cert.Lib.Words

open Idealize.ShloMosaic

/-- A pattern whose exponent field is not all ones denotes a real. -/
theorem ieee_real (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split_ifs <;> exact ⟨_, rfl⟩

/-- The same for a 32-bit float word: exponent field (bits 23–30) not 255. -/
theorem f32_real (b : BitVec 32) (h : (b.extractLsb' 23 8).toNat ≠ 255) :
    ∃ r : ℝ, Ideal.ofBits .f32 b = (r : EReal) := ieee_real 8 23 b h

/-- 0x40000000 is 2. -/
theorem word_two : Ideal.ofBits .f32 0x40000000#32 = ((2 : ℝ) : EReal) := by
  simp [Ideal.ofBits, Ideal.ieee, -EReal.coe_mul]; norm_num

/-- 0xC0000000 is −2. -/
theorem word_neg_two : Ideal.ofBits .f32 0xC0000000#32 = ((-2 : ℝ) : EReal) := by
  simp [Ideal.ofBits, Ideal.ieee, -EReal.coe_mul]; norm_num

/-- 0x7F800000 is +∞. -/
theorem word_inf : Ideal.ofBits .f32 0x7F800000#32 = ⊤ := by
  simp [Ideal.ofBits, Ideal.ieee]

/-- An extended real whose absolute value compares below the word of +∞ is a real. -/
theorem real_of_abs_lt_inf (x : EReal)
    (h : Ideal.cmp .olt (max x (-x)) (Ideal.ofBits .f32 0x7F800000#32) = 1#1) : ∃ r : ℝ, x = (r : EReal) := by
  rw [word_inf] at h
  induction x using EReal.rec with
  | bot => simp [Ideal.cmp] at h
  | top => simp [Ideal.cmp] at h
  | coe r => exact ⟨r, rfl⟩

end Cert.Lib.Words
-- ==== Proof.RowWords.lean ====
/-
  The two arrangements of `RowNorm` at the programs' float literals. The words denote 0, 1024, 32, 2 and a small real
  (the variance offset: any real will do, since both sides carry the same word), and `32 · 32 = 1024` is the one
  numerical fact the closed form of the variance needs. On real inputs `refRow` and `kerRow` at these words agree.
-/
import proofs.«139534_j13881334301162_2_alg».proof.Proof.RowNorm
import proofs.«139534_j13881334301162_2_alg».proof.Proof.LibWords
import Idealize.ShloMosaic.PureOps.Ideal.Laws

noncomputable section

namespace Cert.RowNorm

open Idealize.ShloMosaic

variable {D : Type} [Fintype D]

/-- 0x44800000 is 1024. -/
theorem word_1024 : w1024 = ((1024 : ℝ) : EReal) := by
  simp [Ideal.ofBits, Ideal.ieee, -EReal.coe_mul]; norm_num

/-- 0x42000000 is 32. -/
theorem word_32 : w32 = ((32 : ℝ) : EReal) := by
  simp [Ideal.ofBits, Ideal.ieee, -EReal.coe_mul]; norm_num

/-- **At the programs' literals the two arrangements agree on real inputs.** -/
theorem rows_agree (x : EReal) (W b g β : D → EReal) (hx : ∃ r : ℝ, x = (r : EReal)) (hW : ∀ k, ∃ r : ℝ, W k = (r : EReal))
    (hb : ∀ k, ∃ r : ℝ, b k = (r : EReal)) (hg : ∀ k, ∃ r : ℝ, g k = (r : EReal)) (hβ : ∀ k, ∃ r : ℝ, β k = (r : EReal)) (d : D) :
    refRow w0 w1024 w32 wEps x W b g β d = kerRow w0 w1024 w32 w1024 w2 wEps x W b g β d := by
  obtain ⟨xr, rfl⟩ := hx
  choose Wr hW using hW
  choose br hb using hb
  choose gr hg using hg
  choose βr hβ using hβ
  obtain rfl : W = fun k => (Wr k : EReal) := funext hW
  obtain rfl : b = fun k => (br k : EReal) := funext hb
  obtain rfl : g = fun k => (gr k : EReal) := funext hg
  obtain rfl : β = fun k => (βr k : EReal) := funext hβ
  obtain ⟨ε, hε⟩ := Cert.Lib.Words.f32_real 0x3727C5AC#32 (by decide)
  have h := refRow_eq_kerRow 1024 32 ε (by norm_num) xr Wr br gr βr d
  rw [show ((32 * 32 : ℝ) : EReal) = ((1024 : ℝ) : EReal) from by norm_num] at h
  rw [show w0 = 0 from Ideal.ofBits_zero_f32, word_1024, word_32, show w2 = ((2 : ℝ) : EReal) from Cert.Lib.Words.word_two,
    show wEps = (ε : EReal) from hε]
  exact h

end Cert.RowNorm

end
-- ==== Proof.Finite.lean ====
/-
  The precondition read entry by entry: if the finiteness predicate of the five argument arrays is all ones, every
  entry of every array is a real number. The predicate is the conjunction, over the arrays, of "every entry's
  absolute value is below +∞"; a conjunction of bits that is 1 has every conjunct 1, an all-reduction by `and` that
  is 1 has every entry 1, and an extended real whose absolute value is below +∞ is a real.
-/
import proofs.«139534_j13881334301162_2_alg».proof.Pre_finite_inputs
import proofs.«139534_j13881334301162_2_alg».proof.Proof.Gen.Pre_finite_inputs
import proofs.«139534_j13881334301162_2_alg».proof.Proof.LibWords
import Idealize.ShloMosaic.Lib.ReduceAll
import Idealize.ShloMosaic.Lib.ValueIdx
import Idealize.ShloMosaic.Lib.Affine

noncomputable section

namespace Cert.Finite

open Cert.Pre_finite_inputs Cert.Pre_finite_inputs.Gen Idealize.ShloMosaic

instance : Subsingleton S_.Idx := ⟨fun a b => funext fun d => d.elim0⟩

/-- Every entry of every argument array is a real. -/
theorem all_real (a0 : FVec Ideal S2048x32 .f32) (a1 : FVec Ideal S1024x1 .f32) (a2 a3 a4 : FVec Ideal S1024 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  -- a conjunction of bits that is 1: every conjunct is 1
  obtain ⟨h0, e4⟩ := IntOp.andi_eq_one.1 (show IntOp.andi _ _ = 1#1 from h0)
  obtain ⟨h0, e3⟩ := IntOp.andi_eq_one.1 (show IntOp.andi _ _ = 1#1 from h0)
  obtain ⟨h0, e2⟩ := IntOp.andi_eq_one.1 (show IntOp.andi _ _ = 1#1 from h0)
  obtain ⟨e0, e1⟩ := IntOp.andi_eq_one.1 (show IntOp.andi _ _ = 1#1 from h0)
  -- an all-reduction by `and` that is 1: every entry compares below +∞, so it is a real
  exact ⟨fun i => Cert.Lib.Words.real_of_abs_lt_inf (a0 i) (Host.reduce_andi_all _ _ _ _ _ e0 i),
    fun i => Cert.Lib.Words.real_of_abs_lt_inf (a1 i) (Host.reduce_andi_all _ _ _ _ _ e1 i),
    fun i => Cert.Lib.Words.real_of_abs_lt_inf (a2 i) (Host.reduce_andi_all _ _ _ _ _ e2 i),
    fun i => Cert.Lib.Words.real_of_abs_lt_inf (a3 i) (Host.reduce_andi_all _ _ _ _ _ e3 i),
    fun i => Cert.Lib.Words.real_of_abs_lt_inf (a4 i) (Host.reduce_andi_all _ _ _ _ _ e4 i)⟩

end Cert.Finite

end
-- ==== Proof.lean ====
/-
  A scalar-to-vector affine map followed by a layer normalisation, computed two ways, and the proof that the two
  programs end with equal results on the extended reals.

  For every scalar `x (p, q)` of a 2048 × 32 array and parameter vectors `W`, `b`, `g`, `β` of 1024 entries the result
  at (p, q, d) is the normalised row `h k = (x · W k + b k) · 32`: `(h d − μ) · rsqrt (σ² + ε) · g d + β d` with `μ` the
  average of `h` and `σ²` the average of `(h − μ)²`. The reference forms `h`, `μ` and `σ²` as written. The kernel program
  centres the parameters on the host (`Wc = W − avg W`, `bc = b − avg b`), takes the three second moments
  `A = avg Wc²`, `B = avg Wc·bc`, `C = avg bc²` once, and its region computes, 2048 rows at a time,
  `(x · Wc d + bc d) · 32 · rsqrt (1024 · (x² · A + 2x · B + C) + ε) · g d + β d`.

  The two are equal because subtracting an average is linear (`h d − μ = (x · Wc d + bc d) · 32`) and the square of a sum
  expands under the average (`σ² = 32² · (x² · A + 2x · B + C)`, and `32² = 1024`). Both steps distribute a product over a
  sum of 1024 terms, so they hold for real inputs and not at the infinities: the precondition that every input is
  finite is used, entry by entry. The reciprocal square root is applied to equal arguments on both sides.

  The pieces: `RowNorm` and `RowWords` state the two arrangements of one row and prove them equal on reals at the
  programs' literals; `RefRead` reads the reference's result at (p, q, d) as the first arrangement; `KerHost`,
  `KerBody`, `KerBlocks` and `KerRun` read the kernel program's result at (p, q, d) as the second (host lines before the
  region, one stored tile, the 32 tiles covering the array, the re-laying after the region); `Finite` reads the
  precondition entry by entry.
-/
import proofs.«139534_j13881334301162_2_alg».proof.Defs
import proofs.«139534_j13881334301162_2_alg».proof.Proof.Gen.Kernel
import proofs.«139534_j13881334301162_2_alg».proof.Proof.Gen.Kernel.Frame
import proofs.«139534_j13881334301162_2_alg».proof.Proof.Gen.KernelIdeal
import proofs.«139534_j13881334301162_2_alg».proof.Proof.Gen.KernelIdeal.Frame
import proofs.«139534_j13881334301162_2_alg».proof.Proof.Gen.ReferenceIdeal
import proofs.«139534_j13881334301162_2_alg».proof.Proof.Gen.Pre_finite_inputs
import proofs.«139534_j13881334301162_2_alg».proof.Proof.Gen.ReferenceIdeal.Run
import proofs.«139534_j13881334301162_2_alg».proof.Proof.Gen.ReferenceIdeal.Read
import proofs.«139534_j13881334301162_2_alg».proof.Proof.KerRun
import proofs.«139534_j13881334301162_2_alg».proof.Proof.RefRead
import proofs.«139534_j13881334301162_2_alg».proof.Proof.RowWords
import proofs.«139534_j13881334301162_2_alg».proof.Proof.Finite

noncomputable section

namespace Cert.Proof

open Idealize.ShloMosaic Idealize.ShloMosaic.ValueIdx Idealize.SL.Sem

/-- Each program runs and leaves its arguments as they were: the word-level kernel program, -/
theorem frame_k : Cert.frame_Kernel := fun m ρ _ => Cert.Kernel.Gen.frame m ρ
/-- its reading on the extended reals, -/
theorem frame_ki : Cert.frame_KernelIdeal := fun m ρ _ => Cert.KernelIdeal.Gen.frame m ρ
/-- and the reference (its run, with the result dropped). -/
theorem frame_ri : Cert.frame_ReferenceIdeal := fun m ρ _ =>
  (θ_run Cert.ReferenceIdeal.defs _ _).mono (fun _ h c => (h c).2) (Cert.ReferenceIdeal.Value.run (F := Ideal) m ρ)

/-- On finite inputs the reference's result and the kernel program's result are one array: at (p, q, d) the two
    arrangements of the normalised row of `x (p, q)`. -/
theorem results_agree (a0 : (⟨2, ![2048, 32]⟩ : Shape).Idx → EReal) (a1 : (⟨2, ![1024, 1]⟩ : Shape).Idx → EReal)
    (a2 a3 a4 : (⟨1, ![1024]⟩ : Shape).Idx → EReal)
    (h : Cert.Pre_finite_inputs.fn (F := Ideal) a0 a1 a2 a3 a4 = fun _ => 1#1) :
    Cert.ReferenceIdeal.Read.val_main_v34 (F := Ideal) a0 a1 a2 a3 a4 = Cert.KerRun.result a0 a1 a2 a3 a4 := by
  obtain ⟨h0, h1, h2, h3, h4⟩ := Cert.Finite.all_real a0 a1 a2 a3 a4 h
  funext i
  obtain ⟨p, q, d, rfl⟩ : ∃ (p : Fin 2048) (q : Fin 32) (d : Fin 1024), i = ix3 p q d := ⟨i 0, i 1, i 2, eq_ix3 i⟩
  rw [Cert.RefRead.ref_apply, Cert.KerRun.result_apply]
  exact Cert.RowNorm.rows_agree _ _ _ _ _ (h0 _) (fun _ => h1 _) (fun _ => h2 _) (fun _ => h3 _) (fun _ => h4 _) d

/-- From memories that agree on the arguments both programs run, and end with equal results. -/
theorem algebraic : Cert.algebraic_KernelIdeal_ReferenceIdeal := by
  intro m ρ m' ρ' hpre hagree
  refine ⟨fun c => Cert.KerRun.result (Cert.KerHost.A0 m c) (Cert.KerHost.A1 m c) (Cert.KerHost.A2 m c) (Cert.KerHost.A3 m c)
    (Cert.KerHost.A4 m c), Cert.KerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2]
  exact results_agree _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
